-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x2 : Shape := ⟨2, ![4096, 2]⟩
abbrev S32768x128 : Shape := ⟨2, ![32768, 128]⟩
abbrev S32768x2 : Shape := ⟨2, ![32768, 2]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S4096x128 .f32) (main_arg1 : IVec S4096x2 32) (main_arg2 : FVec F S32768x128 .f32) (main_arg3 : IVec S32768x2 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S32768x128 .f32 := Host.absf main_arg2
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S4096x128 : Shape := ⟨2, ![4096, 128]⟩
abbrev S4096x2 : Shape := ⟨2, ![4096, 2]⟩
abbrev S32768x128 : Shape := ⟨2, ![32768, 128]⟩
abbrev S32768x2 : Shape := ⟨2, ![32768, 2]⟩
abbrev S4096x1 : Shape := ⟨2, ![4096, 1]⟩
abbrev S4096 : Shape := ⟨1, ![4096]⟩
abbrev S32768x1 : Shape := ⟨2, ![32768, 1]⟩
abbrev S32768 : Shape := ⟨1, ![32768]⟩
abbrev S1x32768 : Shape := ⟨2, ![1, 32768]⟩
abbrev S1x1 : Shape := ⟨2, ![1, 1]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S128x1024 : Shape := ⟨2, ![128, 1024]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x2, .i32⟩
  | .hbm, ⟨2, _⟩ => ⟨S32768x128, .f32⟩
  | .hbm, ⟨3, _⟩ => ⟨S32768x2, .i32⟩
  | .hbm, ⟨4, _⟩ => ⟨S4096x1, .i32⟩
  | .hbm, ⟨5, _⟩ => ⟨S4096, .i32⟩
  | .hbm, ⟨6, _⟩ => ⟨S4096x1, .i32⟩
  | .hbm, ⟨7, _⟩ => ⟨S32768x1, .i32⟩
  | .hbm, ⟨8, _⟩ => ⟨S32768, .i32⟩
  | .hbm, ⟨9, _⟩ => ⟨S1x32768, .i32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S4096x2_S4096x1_0_0 : S4096x2.Slices ![0, 0] S4096x1
  shapeCasts_S4096x1_S4096 : S4096x1.ShapeCasts S4096
  shapeCasts_S4096_S4096x1 : S4096.ShapeCasts S4096x1
  slices_S32768x2_S32768x1_0_0 : S32768x2.Slices ![0, 0] S32768x1
  shapeCasts_S32768x1_S32768 : S32768x1.ShapeCasts S32768
  shapeCasts_S32768_S1x32768 : S32768.ShapeCasts S1x32768
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  transposes_S1024x128_p1_0_S128x1024 : S1024x128.Transposes [1, 0] S128x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S32768x128.size a
  hwx0_1 : ∀ i : grid0.Coords, EltTy.bits .f32 = 32 ∨ (Rect.block (s := S32768x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .i32 = 32 ∨ (Rect.block (s := S1x32768) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x2 : Shape := ⟨2, ![4096, 2]⟩
abbrev S32768x128 : Shape := ⟨2, ![32768, 128]⟩
abbrev S32768x2 : Shape := ⟨2, ![32768, 2]⟩
abbrev S4096x1 : Shape := ⟨2, ![4096, 1]⟩
abbrev S4096 : Shape := ⟨1, ![4096]⟩
abbrev S32768x1 : Shape := ⟨2, ![32768, 1]⟩
abbrev S32768 : Shape := ⟨1, ![32768]⟩
abbrev S128x32768 : Shape := ⟨2, ![128, 32768]⟩
abbrev S4096x32768 : Shape := ⟨2, ![4096, 32768]⟩
abbrev S1x32768 : Shape := ⟨2, ![1, 32768]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2, .i32⟩
  | .hbm, ⟨2, _⟩ => ⟨S32768x128, .f32⟩
  | .hbm, ⟨3, _⟩ => ⟨S32768x2, .i32⟩
  | .hbm, ⟨4, _⟩ => ⟨S4096x1, .i32⟩
  | .hbm, ⟨5, _⟩ => ⟨S4096, .i32⟩
  | .hbm, ⟨6, _⟩ => ⟨S32768x1, .i32⟩
  | .hbm, ⟨7, _⟩ => ⟨S32768, .i32⟩
  | .hbm, ⟨8, _⟩ => ⟨S128x32768, .f32⟩
  | .hbm, ⟨9, _⟩ => ⟨S4096x32768, .f32⟩
  | .hbm, ⟨10, _⟩ => ⟨S4096x1, .i32⟩
  | .hbm, ⟨11, _⟩ => ⟨S1x32768, .i32⟩
  | .hbm, ⟨12, _⟩ => ⟨S4096x32768, .i32⟩
  | .hbm, ⟨13, _⟩ => ⟨S4096x32768, .i32⟩
  | .hbm, ⟨14, _⟩ => ⟨S4096x32768, .i1⟩
  | .hbm, ⟨15, _⟩ => ⟨S_, .f32⟩
  | .hbm, ⟨16, _⟩ => ⟨S4096x32768, .f32⟩
  | .hbm, ⟨17, _⟩ => ⟨S4096x32768, .i1⟩
  | .hbm, ⟨18, _⟩ => ⟨S4096x32768, .i1⟩
  | .hbm, ⟨19, _⟩ => ⟨S4096x32768, .i1⟩
  | .hbm, ⟨20, _⟩ => ⟨S_, .f32⟩
  | .hbm, ⟨21, _⟩ => ⟨S4096x32768, .f32⟩
  | .hbm, ⟨22, _⟩ => ⟨S4096x32768, .i1⟩
  | .hbm, ⟨23, _⟩ => ⟨S4096x32768, .i1⟩
  | .hbm, ⟨24, _⟩ => ⟨S_, .f32⟩
  | .hbm, ⟨25, _⟩ => ⟨S4096x32768, .f32⟩
  | .hbm, ⟨26, _⟩ => ⟨S4096x32768, .f32⟩
  | .hbm, ⟨27, _⟩ => ⟨S_, .f32⟩
  | .hbm, ⟨28, _⟩ => ⟨S_, .f32⟩
  | .hbm, ⟨29, _⟩ => ⟨S4096x32768, .f32⟩
  | .hbm, ⟨30, _⟩ => ⟨S4096x32768, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x32768, .f32⟩
  | .hbm, ⟨36, _⟩ => ⟨S4096x32768, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  slices_S32768x2_S32768x1_0_0 : S32768x2.Slices ![0, 0] S32768x1
  shapeCasts_S32768x1_S32768 : S32768x1.ShapeCasts S32768
  transposes_S32768x128_S128x32768_1_0 : S32768x128.Transposes [1, 0] S128x32768
  bcast_S4096_S4096x1_0 : S4096.BroadcastsInDim S4096x1 (![0] : Fin 1 → Fin S4096x1.rank)
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  bcast_S_S4096x32768 : S_.BroadcastsInDim S4096x32768 (![] : Fin 0 → Fin S4096x32768.rank)
  reducesTo_S4096x32768_S_d0_1 : S4096x32768.ReducesTo [0, 1] S_
  h_S_ : 0 < S_.numel
  dot_S4096x128_S128x32768_S4096x32768_1_0_0_1_n_n_wf : DotDims.WF S4096x128 S128x32768 S4096x32768 [1] [0] [0] [1] [] []

variable [Facts₀]

def dot_S4096x128_S128x32768_S4096x32768_1_0_0_1_n_n : DotDims S4096x128 S128x32768 S4096x32768 where
  lhsContracting := [1]
  rhsContracting := [0]
  lhsNonContracting := [0]
  rhsNonContracting := [1]
  lhsBatch := []
  rhsBatch := []
  wf := dot_S4096x128_S128x32768_S4096x32768_1_0_0_1_n_n_wf

class Facts : Prop extends Facts₀ where

variable [Facts]
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.Spec.lean ====
/-
  The mathematics of the cross-batch memory loss, stated once over the extended reals.

  For embeddings E [4096,128], reference embeddings R [32768,128] and integer labels L [4096,2], Q [32768,2]:
    sim(r,c)  = Σ_k E(r,k)·R(c,k)
    pos(r,c)  = 1 − sim(r,c)   if L(r,0) = Q(c,0) and sim(r,c) < 0.99999 (as an f32 word),  else 0
    neg(r,c)  = sim(r,c)       if L(r,0) ≠ Q(c,0) and sim(r,c) > 1/2,                        else 0
    loss      = (Σ_{r,c} pos(r,c) + Σ_{r,c} neg(r,c)) / 4096.
  The same three formulas are stated for one 512×1024 tile of the similarity matrix (a 512×128 block of E, a
  1024×128 block of R, a 512×1 column of labels and a 1×1024 row of labels), and the law that joins them: the 8×32
  tiles partition the 4096×32768 matrix, so the sum over the tiles of each tile's sum is the sum over the matrix.
  Only commutativity and associativity of addition are used, so nothing here needs a value to be finite.
-/
import Idealize.ShloMosaic.PureOps.Ideal
import Idealize.ShloMosaic.Lib.ValueIdx
import proofs.«151275_j38062000177556_1_alg».proof.Proof.LibTileSum

noncomputable section

namespace Cert.Xbm

open Idealize.ShloMosaic Idealize.ShloMosaic.ValueIdx

/-! ## One entry of the similarity matrix, as a scalar function of the similarity and the two labels -/

/-- A positive pair's contribution: `1 − s` when the labels agree and `s` is below the threshold word, else `0`. -/
def posT (s : EReal) (a b : BitVec 32) : EReal :=
  Scalar.select (IntOp.andi (IntOp.cmpi .eq a b)
      (FloatOps.cmpf (F := Ideal) (φ := .f32) .olt s (FloatOps.ofBits (F := Ideal) .f32 0x3F7FFF58#32)))
    (FloatOps.subf (F := Ideal) (φ := .f32) (FloatOps.ofBits (F := Ideal) .f32 0x3F800000#32) s)
    (FloatOps.ofBits (F := Ideal) .f32 0x00000000#32)

/-- A negative pair's contribution: `s` when the labels differ and `s` exceeds one half, else `0`. -/
def negT (s : EReal) (a b : BitVec 32) : EReal :=
  Scalar.select (IntOp.andi (~~~(IntOp.cmpi .eq a b))
      (FloatOps.cmpf (F := Ideal) (φ := .f32) .ogt s (FloatOps.ofBits (F := Ideal) .f32 0x3F000000#32)))
    s (FloatOps.ofBits (F := Ideal) .f32 0x00000000#32)

/-- On one bit, exclusive-or with `1` is complement. -/
theorem xor_one_eq_not (b : BitVec 1) : IntOp.xori b 1#1 = ~~~b := by
  rcases BitVec.eq_zero_or_eq_one b with h | h <;> subst h <;> decide

/-! ## The whole matrix -/

abbrev SE : Shape := ⟨2, ![4096, 128]⟩
abbrev SR : Shape := ⟨2, ![32768, 128]⟩
abbrev SL : Shape := ⟨2, ![4096, 2]⟩
abbrev SQ : Shape := ⟨2, ![32768, 2]⟩

/-- The similarity of row `r` of `E` and row `c` of `R`. -/
def simW (E : SE.Idx → EReal) (R : SR.Idx → EReal) (r : Fin 4096) (c : Fin 32768) : EReal :=
  ∑ k : Fin 128, E (ix2 r k) * R (ix2 c k)

def posW (E : SE.Idx → EReal) (R : SR.Idx → EReal) (L : SL.Idx → BitVec 32) (Q : SQ.Idx → BitVec 32)
    (r : Fin 4096) (c : Fin 32768) : EReal :=
  posT (simW E R r c) (L (ix2 r (0 : Fin 2))) (Q (ix2 c (0 : Fin 2)))

def negW (E : SE.Idx → EReal) (R : SR.Idx → EReal) (L : SL.Idx → BitVec 32) (Q : SQ.Idx → BitVec 32)
    (r : Fin 4096) (c : Fin 32768) : EReal :=
  negT (simW E R r c) (L (ix2 r (0 : Fin 2))) (Q (ix2 c (0 : Fin 2)))

/-- The two sums before the final division. -/
def total (E : SE.Idx → EReal) (R : SR.Idx → EReal) (L : SL.Idx → BitVec 32) (Q : SQ.Idx → BitVec 32) : EReal :=
  (∑ r : Fin 4096, ∑ c : Fin 32768, posW E R L Q r c) + (∑ r : Fin 4096, ∑ c : Fin 32768, negW E R L Q r c)

/-- The loss: the total divided by the number of rows (the word of 4096.0). -/
def loss (E : SE.Idx → EReal) (R : SR.Idx → EReal) (L : SL.Idx → BitVec 32) (Q : SQ.Idx → BitVec 32) : EReal :=
  FloatOps.hostDivf (F := Ideal) (φ := .f32) (total E R L Q) (FloatOps.ofBits (F := Ideal) .f32 0x45800000#32)

/-! ## One 512×1024 tile -/

abbrev BE : Shape := ⟨2, ![512, 128]⟩
abbrev BR : Shape := ⟨2, ![1024, 128]⟩
abbrev BL : Shape := ⟨2, ![512, 1]⟩
abbrev BQ : Shape := ⟨2, ![1, 1024]⟩

def simB (x0 : BE.Idx → EReal) (x1 : BR.Idx → EReal) (p : Fin 512) (q : Fin 1024) : EReal :=
  ∑ k : Fin 128, x0 (ix2 p k) * x1 (ix2 q k)

def posB (x0 : BE.Idx → EReal) (x1 : BR.Idx → EReal) (x2 : BL.Idx → BitVec 32) (x3 : BQ.Idx → BitVec 32)
    (p : Fin 512) (q : Fin 1024) : EReal :=
  posT (simB x0 x1 p q) (x2 (ix2 p (0 : Fin 1))) (x3 (ix2 (0 : Fin 1) q))

def negB (x0 : BE.Idx → EReal) (x1 : BR.Idx → EReal) (x2 : BL.Idx → BitVec 32) (x3 : BQ.Idx → BitVec 32)
    (p : Fin 512) (q : Fin 1024) : EReal :=
  negT (simB x0 x1 p q) (x2 (ix2 p (0 : Fin 1))) (x3 (ix2 (0 : Fin 1) q))

/-- One tile's contribution: its positive sum plus its negative sum. -/
def partB (x0 : BE.Idx → EReal) (x1 : BR.Idx → EReal) (x2 : BL.Idx → BitVec 32) (x3 : BQ.Idx → BitVec 32) : EReal :=
  (∑ p : Fin 512, ∑ q : Fin 1024, posB x0 x1 x2 x3 p q) + (∑ p : Fin 512, ∑ q : Fin 1024, negB x0 x1 x2 x3 p q)

/-! ## The tiles partition the matrix -/

/-- Tile `t` (tiles numbered row by row, 32 to a row) holds rows `512·(t / 32) + p`. -/
def rowOf (t : Fin 256) (p : Fin 512) : Fin 4096 :=
  ⟨t.val / 32 * 512 + p.val, by have := t.isLt; have := p.isLt; omega⟩

/-- … and columns `1024·(t mod 32) + q`. -/
def colOf (t : Fin 256) (q : Fin 1024) : Fin 32768 :=
  ⟨t.val % 32 * 1024 + q.val, by have := t.isLt; have := q.isLt; omega⟩

/-- The sum over the 256 tiles of each tile's 512×1024 sum is the sum over the 4096×32768 matrix. -/
theorem sum_tiles {M : Type*} [AddCommMonoid M] (f : Fin 4096 → Fin 32768 → M) :
    ∑ t : Fin 256, ∑ p : Fin 512, ∑ q : Fin 1024, f (rowOf t p) (colOf t q) = ∑ r : Fin 4096, ∑ c : Fin 32768, f r c := by
  -- the same function on plain numbers, zero outside the matrix
  let g : ℕ → ℕ → M := fun a b => if h : a < 4096 ∧ b < 32768 then f ⟨a, h.1⟩ ⟨b, h.2⟩ else 0
  have hg : ∀ (r : Fin 4096) (c : Fin 32768), f r c = g r.val c.val := fun r c => by
    show f r c = dite _ _ _
    rw [dif_pos ⟨r.isLt, c.isLt⟩]
  have hR : ∑ r : Fin 4096, ∑ c : Fin 32768, f r c
      = ∑ i : Fin 8, ∑ p : Fin 512, ∑ k : Fin 32, ∑ q : Fin 1024, g (i.val * 512 + p.val) (k.val * 1024 + q.val) := by
    have e1 := Cert.Lib.TileSum.sum_fin_mul 8 512 (fun a => ∑ c : Fin 32768, g a c.val)
    have e2 : ∀ a : ℕ, ∑ c : Fin 32768, g a c.val = ∑ k : Fin 32, ∑ q : Fin 1024, g a (k.val * 1024 + q.val) :=
      fun a => (Cert.Lib.TileSum.sum_fin_mul 32 1024 (fun b => g a b)).symm
    calc ∑ r : Fin 4096, ∑ c : Fin 32768, f r c
        = ∑ r : Fin (8 * 512), ∑ c : Fin 32768, g r.val c.val :=
          Finset.sum_congr rfl fun r _ => Finset.sum_congr rfl fun c _ => hg r c
      _ = ∑ i : Fin 8, ∑ p : Fin 512, ∑ c : Fin 32768, g (i.val * 512 + p.val) c.val := e1.symm
      _ = _ := Finset.sum_congr rfl fun i _ => Finset.sum_congr rfl fun p _ => e2 _
  have hT : ∑ t : Fin 256, ∑ p : Fin 512, ∑ q : Fin 1024, f (rowOf t p) (colOf t q)
      = ∑ i : Fin 8, ∑ k : Fin 32, ∑ p : Fin 512, ∑ q : Fin 1024, g (i.val * 512 + p.val) (k.val * 1024 + q.val) := by
    have e3 := Cert.Lib.TileSum.sum_fin_mul 8 32
      (fun n => ∑ p : Fin 512, ∑ q : Fin 1024, g (n / 32 * 512 + p.val) (n % 32 * 1024 + q.val))
    calc ∑ t : Fin 256, ∑ p : Fin 512, ∑ q : Fin 1024, f (rowOf t p) (colOf t q)
        = ∑ t : Fin (8 * 32), ∑ p : Fin 512, ∑ q : Fin 1024, g (t.val / 32 * 512 + p.val) (t.val % 32 * 1024 + q.val) :=
          Finset.sum_congr rfl fun t _ => Finset.sum_congr rfl fun p _ => Finset.sum_congr rfl fun q _ => hg _ _
      _ = ∑ i : Fin 8, ∑ k : Fin 32, ∑ p : Fin 512, ∑ q : Fin 1024,
            g ((i.val * 32 + k.val) / 32 * 512 + p.val) ((i.val * 32 + k.val) % 32 * 1024 + q.val) := e3.symm
      _ = _ := Finset.sum_congr rfl fun i _ => Finset.sum_congr rfl fun k _ => by
          have hk := k.isLt
          have h1 : (i.val * 32 + k.val) / 32 = i.val := by omega
          have h2 : (i.val * 32 + k.val) % 32 = k.val := by omega
          rw [h1, h2]
  rw [hT, hR]
  exact Finset.sum_congr rfl fun i _ => Finset.sum_comm

end Cert.Xbm

end
-- ==== Proof.RefIsSpec.lean ====
/-
  The reference computes the loss of Spec.lean.

  Read one operation at a time, the reference's program is: the two label columns (column 0 of each label array, spread
  over the 4096×32768 matrix), the similarity matrix E·Rᵀ as a sum over the 128 features, the two masked matrices
  (a pointwise function of the similarity and the two labels), each summed over every entry from zero, the two sums
  added and divided by 4096. Entry (r, c) of each masked matrix is Spec.lean's `posW` / `negW` at (r, c), the sum
  over the index type of a matrix is the double sum over its rows and columns, and `0 + x = x`.
-/
import proofs.«151275_j38062000177556_1_alg».proof.Proof.Gen.ReferenceIdeal.Read
import proofs.«151275_j38062000177556_1_alg».proof.Proof.Spec

noncomputable section

namespace Cert.ReferenceIdeal.RefValue

open Cert.ReferenceIdeal Cert.ReferenceIdeal.Read Idealize.ShloMosaic Idealize.ShloMosaic.ValueIdx Cert.Xbm

variable (x0 : (⟨S4096x128, .f32⟩ : BufTy).Contents (Elt Ideal)) (x1 : (⟨S4096x2, .i32⟩ : BufTy).Contents (Elt Ideal))
  (x2 : (⟨S32768x128, .f32⟩ : BufTy).Contents (Elt Ideal)) (x3 : (⟨S32768x2, .i32⟩ : BufTy).Contents (Elt Ideal))

/-- The row labels spread over the matrix: entry (r, c) is the label of row r (column 0 of the label array). -/
theorem lab_row (r : Fin 4096) (c : Fin 32768) :
    val_main_v8 (F := Ideal) x1 (ix2 r c) = x1 (ix2 r (0 : Fin 2)) := by
  rw [val_main_v8_apply, val_main_v6_apply, val_main_v1_apply, val_main_v0_apply]
  refine congrArg x1 (funext fun a => Fin.ext ?_)
  match a with
  | ⟨0, _⟩ => exact Nat.div_one _
  | ⟨1, _⟩ => rfl

/-- The column labels spread over the matrix: entry (r, c) is the label of reference row c. -/
theorem lab_col (r : Fin 4096) (c : Fin 32768) :
    val_main_v9 (F := Ideal) x3 (ix2 r c) = x3 (ix2 c (0 : Fin 2)) := by
  rw [val_main_v9_apply, val_main_v7_apply, val_main_v3_apply, val_main_v2_apply]
  refine congrArg x3 (funext fun a => Fin.ext ?_)
  match a with
  | ⟨0, _⟩ => exact Nat.div_one _
  | ⟨1, _⟩ => rfl

/-- The similarity matrix: entry (r, c) is the sum over the features of E(r,k)·R(c,k) (the right operand is read
    through its transpose). -/
theorem sim_eq (r : Fin 4096) (c : Fin 32768) :
    val_main_v5 (F := Ideal) x0 x2 (ix2 r c) = simW x0 x2 r c := by
  rw [val_main_v5_apply]
  unfold simW
  refine Finset.sum_congr rfl fun k _ => ?_
  rw [val_main_v4_apply]
  have e1 : lidx_main_v5 (ix2 r c) k = ix2 r k := funext fun a => by
    match a with
    | ⟨0, _⟩ => rfl
    | ⟨1, _⟩ => rfl
  have e2 : idx_main_v4 (ridx_main_v5 (ix2 r c) k) = ix2 c k := funext fun a => by
    match a with
    | ⟨0, _⟩ => rfl
    | ⟨1, _⟩ => rfl
  rw [e1, e2]

/-- The positive masked matrix at (r, c). -/
theorem pos_eq (r : Fin 4096) (c : Fin 32768) :
    val_main_v20 (F := Ideal) x0 x1 x2 x3 (ix2 r c) = posW x0 x2 x1 x3 r c := by
  rw [val_main_v20_apply, val_main_v13_apply, val_main_v10_apply, val_main_v12_apply, val_main_v19_apply,
    lab_row, lab_col, sim_eq, val_main_v11_apply, val_main_cst_apply, val_main_v18_apply, val_main_cst_1_apply,
    val_main_call0_v1_apply, val_main_call0_v0_apply, val_main_cst_2_apply]
  rfl

/-- The negative masked matrix at (r, c). -/
theorem neg_eq (r : Fin 4096) (c : Fin 32768) :
    val_main_v22 (F := Ideal) x0 x1 x2 x3 (ix2 r c) = negW x0 x2 x1 x3 r c := by
  rw [val_main_v22_apply, val_main_v17_apply, val_main_v14_apply, val_main_v10_apply, val_main_v16_apply,
    lab_row, lab_col, sim_eq, val_main_v15_apply, val_main_cst_0_apply,
    val_main_call1_v1_apply, val_main_call1_v0_apply, val_main_cst_4_apply]
  rfl

/-- The reference's result is the loss. -/
theorem ref_eq : val_main_v25 (F := Ideal) x0 x1 x2 x3 = fun _ => loss x0 x2 x1 x3 := by
  funext i
  rw [val_main_v25_apply, val_main_v24_apply, val_main_v21_apply, val_main_v23_apply, val_main_cst_3_apply,
    val_main_cst_5_apply, val_main_cst_6_apply, sum_idx2, sum_idx2]
  simp only [pos_eq, neg_eq]
  unfold loss total
  show FloatOps.hostDivf (FloatOps.addf (Ideal.ofBits .f32 0x00000000#32 + _) (Ideal.ofBits .f32 0x00000000#32 + _)) _ = _
  rw [Ideal.ofBits_zero_f32, zero_add, zero_add]
  rfl

end Cert.ReferenceIdeal.RefValue

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Body.lean ====
/-
  What the kernel's body computes at one grid point, on the extended reals.

  From the point's four blocks — x0 (512×128 rows of E), x1 (1024×128 rows of R), x2 (a 512×1 column of labels),
  x3 (a 1×1024 row of labels) — and the accumulator cell's previous content, the body forms the 512×1024 tile of the
  similarity matrix (x0 times the transpose of x1, into a zero accumulator: entry (p,q) is Σ_k x0(p,k)·x1(q,k); the
  change of float format before the product is the identity on the extended reals), the tile of label agreements
  (the column spread along the rows against the row spread down the columns), the two masked tiles, each summed over
  all its entries, and stores  previous + (positive sum + negative sum).  So one point adds Spec.lean's `partB` of its
  blocks to the cell; at the first point the cell is first set to zero.
-/
import proofs.«151275_j38062000177556_1_alg».proof.Proof.Gen.KernelIdeal.Skeleton
import proofs.«151275_j38062000177556_1_alg».proof.Proof.Spec
import proofs.«151275_j38062000177556_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Xbm

/-- The similarity tile at (p, q): the product of x0 with the transpose of x1 into zero. -/
theorem sim_apply (x0 : Vec Ideal S512x128 .f32) (x1 : Vec Ideal S1024x128 .f32) (p : Fin 512) (q : Fin 1024) :
    k0_pay3 (F := Ideal) x0 x1 (ix2 p q) = simB x0 x1 p q := by
  unfold k0_pay3
  refine (Cert.LibDense.matmul_zero_plain Facts₀.dot_S512x128_S128x1024_S512x1024_1_0_0_1_n_n_wf none _ _ p q).trans ?_
  unfold simB
  refine Finset.sum_congr rfl fun k _ => ?_
  refine congrArg (x0 (ix2 p k) * ·) ?_
  exact transpose_apply [1, 0] _ Facts₀.transposes_S1024x128_p1_0_S128x1024 (ix2 k q) (ix2 q k)
    (fun b => match b with | ⟨0, _⟩ => rfl | ⟨1, _⟩ => rfl)

/-- The label-agreement tile at (p, q): the column's label of row p against the row's label of column q. -/
theorem same_apply (x2 : Vec Ideal S512x1 .i32) (x3 : Vec Ideal S1x1024 .i32) (p : Fin 512) (q : Fin 1024) :
    k0_pay4 (F := Ideal) x2 x3 (ix2 p q) = IntOp.cmpi .eq (x2 (ix2 p (0 : Fin 1))) (x3 (ix2 (0 : Fin 1) q)) := by
  unfold k0_pay4
  refine congrArg₂ (IntOp.cmpi CmpIPredicate.eq) ?_ ?_
  · rw [shapeCast_self]
    exact Cert.LibDense.spread_col_apply x2 _ p q
  · rw [shapeCast_self]
    exact broadcastTo_1b_ab_apply x3 _ p q

/-- A sum over every entry of a tile laid out as [1,512,1024] is the double sum over its rows and columns. -/
theorem sum_tile (v : S512x1024.Idx → EReal) (h : S512x1024.ShapeCasts S1x512x1024) :
    ∑ i : S1x512x1024.Idx, shapeCast S1x512x1024 v h i = ∑ p : Fin 512, ∑ q : Fin 1024, v (ix2 p q) :=
  (Equiv.sum_comp (Shape.reshapeEquiv h) v).trans (sum_idx2 v)

/-- The positive sum of the tile. -/
theorem pos_sum (x0 : Vec Ideal S512x128 .f32) (x1 : Vec Ideal S1024x128 .f32) (x2 : Vec Ideal S512x1 .i32)
    (x3 : Vec Ideal S1x1024 .i32) :
    k0_pay5 (F := Ideal) x0 x1 x2 x3 = ∑ p : Fin 512, ∑ q : Fin 1024, posB x0 x1 x2 x3 p q := by
  unfold k0_pay5
  refine (Ideal.multiReduction_add_total _ 0x00000000#32 Facts₀.reduces_S1x512x1024_S1 (fun b => by
    match b with | ⟨0, _⟩ => rfl) (.inl rfl) rfl _).trans ?_
  refine (sum_tile _ _).trans ?_
  refine Finset.sum_congr rfl fun p _ => Finset.sum_congr rfl fun q _ => ?_
  show Scalar.select (IntOp.andi (k0_pay4 (F := Ideal) x2 x3 (ix2 p q))
      (FloatOps.cmpf .olt (k0_pay3 (F := Ideal) x0 x1 (ix2 p q)) _)) (FloatOps.subf _ (k0_pay3 (F := Ideal) x0 x1 (ix2 p q))) _ = _
  rw [sim_apply, same_apply]
  rfl

/-- The negative sum of the tile, at the one index of its result. -/
theorem neg_sum (x0 : Vec Ideal S512x128 .f32) (x1 : Vec Ideal S1024x128 .f32) (x2 : Vec Ideal S512x1 .i32)
    (x3 : Vec Ideal S1x1024 .i32) (j : S1.Idx) :
    k0_pay6 (F := Ideal) x0 x1 x2 x3 j = ∑ p : Fin 512, ∑ q : Fin 1024, negB x0 x1 x2 x3 p q := by
  unfold k0_pay6
  refine (Ideal.multiReduction_add_total _ 0x00000000#32 Facts₀.reduces_S1x512x1024_S1 (fun b => by
    match b with | ⟨0, _⟩ => rfl) (.inl rfl) rfl j).trans ?_
  refine (sum_tile _ _).trans ?_
  refine Finset.sum_congr rfl fun p _ => Finset.sum_congr rfl fun q _ => ?_
  show Scalar.select (IntOp.andi (IntOp.xori (k0_pay4 (F := Ideal) x2 x3 (ix2 p q)) 1#1)
      (FloatOps.cmpf .ogt (k0_pay3 (F := Ideal) x0 x1 (ix2 p q)) _)) (k0_pay3 (F := Ideal) x0 x1 (ix2 p q)) _ = _
  rw [sim_apply, same_apply, xor_one_eq_not]
  rfl

/-- The stored cell: the previous content plus the two sums. -/
theorem cell_apply (v32 : Ideal .f32) (v36 : FVec Ideal S1 .f32) (v41 : Vec Ideal S1x1 .f32) (j : S1x1.Idx) (s : EReal)
    (h36 : ∀ i, v36 i = s) : k0_pay1 (F := Ideal) v32 v36 v41 j = v41 j + (v32 + s) := by
  unfold k0_pay1
  show shapeCast S1x1 v41 _ j + (v32 + v36 _) = _
  rw [shapeCast_self, h36]

/-- A later point: the cell holding `xo` ends at `xo + partB` of the point's blocks. -/
theorem step_later (x0 : Vec Ideal S512x128 .f32) (x1 : Vec Ideal S1024x128 .f32) (x2 : Vec Ideal S512x1 .i32)
    (x3 : Vec Ideal S1x1024 .i32) (xo : Vec Ideal S1x1 .f32) (j : S1x1.Idx) :
    k0_pay1 (F := Ideal) (k0_pay5 x0 x1 x2 x3) (k0_pay6 x0 x1 x2 x3) xo j = xo j + partB x0 x1 x2 x3 := by
  rw [cell_apply _ _ _ j _ (neg_sum x0 x1 x2 x3), pos_sum]
  rfl

/-- The first point: the cell, just set to zero, ends at `partB` of the point's blocks. -/
theorem step_first (x0 : Vec Ideal S512x128 .f32) (x1 : Vec Ideal S1024x128 .f32) (x2 : Vec Ideal S512x1 .i32)
    (x3 : Vec Ideal S1x1024 .i32) (j : S1x1.Idx) :
    k0_pay1 (F := Ideal) (k0_pay5 x0 x1 x2 x3) (k0_pay6 x0 x1 x2 x3) (k0_pay2 (F := Ideal)) j = partB x0 x1 x2 x3 := by
  rw [step_later]
  show Ideal.ofBits .f32 0x00000000#32 + _ = _
  rw [Ideal.ofBits_zero_f32, zero_add]

end Cert.KernelIdeal.Body

end
-- ==== Proof.Blocks.lean ====
/-
  The blocks the kernel's windows read, in terms of the arguments.

  The grid is 8×32, its points numbered row by row: point t has coordinates (t/32, t mod 32). Window 0 reads rows
  512·(t/32)+p of E, window 1 rows 1024·(t mod 32)+q of R. Windows 2 and 3 read arrays the host wrote before the
  call: column 0 of each label array, reshaped to a 4096×1 column and to a 1×32768 row; window 2 reads the column's
  rows 512·(t/32)+p, window 3 the row's entries 1024·(t mod 32)+q. A block's element sits at
  block index × block size + the coordinate inside the block, on every axis.
-/
import proofs.«151275_j38062000177556_1_alg».proof.Proof.Gen.KernelIdeal.Frame
import proofs.«151275_j38062000177556_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Xbm

variable {F : FTy → Type} [FloatOps F]
variable (m : (ℓ : Loc nD τ sig) → Buf (Elt F) ℓ)

/-- A grid point as a tile number. -/
abbrev tile (t : Fin cfg0.N) : Fin 256 := Fin.cast N_0 t

/-! ## The index maps over the grid -/

theorem index0 : ∀ t : Fin cfg0.N, win0_0.index t 0 = t.val / 32 ∧ win0_0.index t 1 = 0 :=
  (by decide +kernel : ∀ t : Fin grid0.N, win0_0.index t 0 = t.val / 32 ∧ win0_0.index t 1 = 0)
theorem index1 : ∀ t : Fin cfg0.N, win0_1.index t 0 = t.val % 32 ∧ win0_1.index t 1 = 0 :=
  (by decide +kernel : ∀ t : Fin grid0.N, win0_1.index t 0 = t.val % 32 ∧ win0_1.index t 1 = 0)
theorem index2 : ∀ t : Fin cfg0.N, win0_2.index t 0 = t.val / 32 ∧ win0_2.index t 1 = 0 :=
  (by decide +kernel : ∀ t : Fin grid0.N, win0_2.index t 0 = t.val / 32 ∧ win0_2.index t 1 = 0)
theorem index3 : ∀ t : Fin cfg0.N, win0_3.index t 0 = 0 ∧ win0_3.index t 1 = t.val % 32 :=
  (by decide +kernel : ∀ t : Fin grid0.N, win0_3.index t 0 = 0 ∧ win0_3.index t 1 = t.val % 32)

/-! ## The label arrays the host wrote -/

/-- The 4096×1 label column at row r is column 0 of the first label array at row r. -/
theorem col_apply (c : Dev nD) (r : Fin 4096) :
    V m c main_v2 (ix2 r (0 : Fin 1)) = m ((c : Thread nD τ).loc main_arg1) (ix2 r (0 : Fin 2)) := by
  have e : (V m c main_v2 : S4096x1.Idx → Elt F .i32)
      = shapeCast S4096x1 (shapeCast S4096 (extractStridedSlice S4096x1 ![0, 0] (m ((c : Thread nD τ).loc main_arg1))
          Facts₀.slices_S4096x2_S4096x1_0_0) Facts₀.shapeCasts_S4096x1_S4096) Facts₀.shapeCasts_S4096_S4096x1 := by
    show StableHlo.after hostOps0 (fun b => m (c, b)) (Proc.devRef .tc main_v2) = _
    after_results; rfl
  refine (congrFun e _).trans ?_
  refine (shapeCast_apply _ Facts₀.shapeCasts_S4096_S4096x1 (ix2 r (0 : Fin 1)) (ix1 r)
    (by rewrite [Shape.rowMajor_val_one, Shape.rowMajor_val_two]; show r.val = r.val * 1 + 0; omega)).trans ?_
  refine (shapeCast_apply _ Facts₀.shapeCasts_S4096x1_S4096 (ix1 r) (ix2 r (0 : Fin 1))
    (by rewrite [Shape.rowMajor_val_one, Shape.rowMajor_val_two]; show r.val * 1 + 0 = r.val; omega)).trans ?_
  exact extractStridedSlice_apply ![0, 0] _ Facts₀.slices_S4096x2_S4096x1_0_0 (ix2 r (0 : Fin 1)) (ix2 r (0 : Fin 2))
    (fun a => match a with
      | ⟨0, _⟩ => by show r.val = 0 + r.val; omega
      | ⟨1, _⟩ => by show 0 = 0 + 0; omega)

/-- The 1×32768 label row at column c' is column 0 of the second label array at row c'. -/
theorem row_apply (c : Dev nD) (q : Fin 32768) :
    V m c main_v5 (ix2 (0 : Fin 1) q) = m ((c : Thread nD τ).loc main_arg3) (ix2 q (0 : Fin 2)) := by
  have e : (V m c main_v5 : S1x32768.Idx → Elt F .i32)
      = shapeCast S1x32768 (shapeCast S32768 (extractStridedSlice S32768x1 ![0, 0] (m ((c : Thread nD τ).loc main_arg3))
          Facts₀.slices_S32768x2_S32768x1_0_0) Facts₀.shapeCasts_S32768x1_S32768) Facts₀.shapeCasts_S32768_S1x32768 := by
    show StableHlo.after hostOps0 (fun b => m (c, b)) (Proc.devRef .tc main_v5) = _
    after_results; rfl
  refine (congrFun e _).trans ?_
  refine (shapeCast_apply _ Facts₀.shapeCasts_S32768_S1x32768 (ix2 (0 : Fin 1) q) (ix1 q)
    (by rewrite [Shape.rowMajor_val_one, Shape.rowMajor_val_two]; show q.val = 0 * 32768 + q.val; omega)).trans ?_
  refine (shapeCast_apply _ Facts₀.shapeCasts_S32768x1_S32768 (ix1 q) (ix2 q (0 : Fin 1))
    (by rewrite [Shape.rowMajor_val_one, Shape.rowMajor_val_two]; show q.val * 1 + 0 = q.val; omega)).trans ?_
  exact extractStridedSlice_apply ![0, 0] _ Facts₀.slices_S32768x2_S32768x1_0_0 (ix2 q (0 : Fin 1)) (ix2 q (0 : Fin 2))
    (fun a => match a with
      | ⟨0, _⟩ => by show q.val = 0 + q.val; omega
      | ⟨1, _⟩ => by show 0 = 0 + 0; omega)

/-! ## The four blocks at a point -/

/-- Window 0's block at point t: rows 512·(t/32)+p of E. -/
theorem blk0 (c : Dev nD) (t : Fin cfg0.N) (p : Fin 512) (k : Fin 128) :
    (iblk m c 0 t : Vec F S512x128 .f32) (ix2 p k)
      = m ((c : Thread nD τ).loc main_arg0) (ix2 (rowOf (tile t) p) k) := by
  unfold iblk
  rw [View.read_apply]
  show V m c main_arg0 _ = _
  rw [V_main_arg0]
  refine congrArg _ (funext fun a => Fin.ext ?_)
  match a with
  | ⟨0, _⟩ => show win0_0.index t 0 * 512 + 1 * p.val = t.val / 32 * 512 + p.val; rw [(index0 t).1]; omega
  | ⟨1, _⟩ => show win0_0.index t 1 * 128 + 1 * k.val = k.val; rw [(index0 t).2]; omega

/-- Window 1's block at point t: rows 1024·(t mod 32)+q of R. -/
theorem blk1 (c : Dev nD) (t : Fin cfg0.N) (q : Fin 1024) (k : Fin 128) :
    (iblk m c 1 t : Vec F S1024x128 .f32) (ix2 q k)
      = m ((c : Thread nD τ).loc main_arg2) (ix2 (colOf (tile t) q) k) := by
  unfold iblk
  rw [View.read_apply]
  show V m c main_arg2 _ = _
  rw [V_main_arg2]
  refine congrArg _ (funext fun a => Fin.ext ?_)
  match a with
  | ⟨0, _⟩ => show win0_1.index t 0 * 1024 + 1 * q.val = t.val % 32 * 1024 + q.val; rw [(index1 t).1]; omega
  | ⟨1, _⟩ => show win0_1.index t 1 * 128 + 1 * k.val = k.val; rw [(index1 t).2]; omega

/-- Window 2's block at point t: the labels of rows 512·(t/32)+p. -/
theorem blk2 (c : Dev nD) (t : Fin cfg0.N) (p : Fin 512) :
    (iblk m c 2 t : Vec F S512x1 .i32) (ix2 p (0 : Fin 1))
      = m ((c : Thread nD τ).loc main_arg1) (ix2 (rowOf (tile t) p) (0 : Fin 2)) := by
  refine Eq.trans ?_ (col_apply m c (rowOf (tile t) p))
  unfold iblk
  rw [View.read_apply]
  show V m c main_v2 _ = V m c main_v2 _
  refine congrArg _ (funext fun a => Fin.ext ?_)
  match a with
  | ⟨0, _⟩ => show win0_2.index t 0 * 512 + 1 * p.val = t.val / 32 * 512 + p.val; rw [(index2 t).1]; omega
  | ⟨1, _⟩ => show win0_2.index t 1 * 1 + 1 * 0 = 0; rw [(index2 t).2]

/-- Window 3's block at point t: the labels of reference rows 1024·(t mod 32)+q. -/
theorem blk3 (c : Dev nD) (t : Fin cfg0.N) (q : Fin 1024) :
    (iblk m c 3 t : Vec F S1x1024 .i32) (ix2 (0 : Fin 1) q)
      = m ((c : Thread nD τ).loc main_arg3) (ix2 (colOf (tile t) q) (0 : Fin 2)) := by
  refine Eq.trans ?_ (row_apply m c (colOf (tile t) q))
  unfold iblk
  rw [View.read_apply]
  show V m c main_v5 _ = V m c main_v5 _
  refine congrArg _ (funext fun a => Fin.ext ?_)
  match a with
  | ⟨0, _⟩ => show win0_3.index t 0 * 1 + 1 * 0 = 0; rw [(index3 t).1]
  | ⟨1, _⟩ => show win0_3.index t 1 * 1024 + 1 * q.val = t.val % 32 * 1024 + q.val; rw [(index3 t).2]; omega

end Cert.KernelIdeal.Blocks

end
-- ==== Proof.Tiles.lean ====
/-
  A tile's contribution in terms of the whole arrays, and the sum of all tiles' contributions.

  If a point's four blocks are the rows 512·(t/32)+p of E, the rows 1024·(t mod 32)+q of R, and the labels of those
  rows, then the tile's similarity at (p,q) is the matrix's similarity at (row, column), hence its two masked sums are
  the sums of `posW` and `negW` over the tile's rows and columns. Adding the 256 tiles' contributions and splitting
  the sum of a sum gives the two sums over the whole matrix (Spec.lean's `sum_tiles`).
-/
import proofs.«151275_j38062000177556_1_alg».proof.Proof.Spec

noncomputable section

namespace Cert.Xbm

open Idealize.ShloMosaic Idealize.ShloMosaic.ValueIdx

/-- Tile `t`'s contribution, when its blocks are the named rows of the whole arrays. -/
theorem partB_eq_tile (E : SE.Idx → EReal) (R : SR.Idx → EReal) (L : SL.Idx → BitVec 32) (Q : SQ.Idx → BitVec 32)
    (t : Fin 256) (x0 : BE.Idx → EReal) (x1 : BR.Idx → EReal) (x2 : BL.Idx → BitVec 32) (x3 : BQ.Idx → BitVec 32)
    (h0 : ∀ (p : Fin 512) (k : Fin 128), x0 (ix2 p k) = E (ix2 (rowOf t p) k))
    (h1 : ∀ (q : Fin 1024) (k : Fin 128), x1 (ix2 q k) = R (ix2 (colOf t q) k))
    (h2 : ∀ p : Fin 512, x2 (ix2 p (0 : Fin 1)) = L (ix2 (rowOf t p) (0 : Fin 2)))
    (h3 : ∀ q : Fin 1024, x3 (ix2 (0 : Fin 1) q) = Q (ix2 (colOf t q) (0 : Fin 2))) :
    partB x0 x1 x2 x3
      = (∑ p : Fin 512, ∑ q : Fin 1024, posW E R L Q (rowOf t p) (colOf t q))
        + (∑ p : Fin 512, ∑ q : Fin 1024, negW E R L Q (rowOf t p) (colOf t q)) := by
  have hs : ∀ (p : Fin 512) (q : Fin 1024), simB x0 x1 p q = simW E R (rowOf t p) (colOf t q) := fun p q => by
    unfold simB simW
    exact Finset.sum_congr rfl fun k _ => by rw [h0, h1]
  unfold partB
  refine congrArg₂ (· + ·) ?_ ?_
  · refine Finset.sum_congr rfl fun p _ => Finset.sum_congr rfl fun q _ => ?_
    unfold posB posW
    rw [hs, h2, h3]
  · refine Finset.sum_congr rfl fun p _ => Finset.sum_congr rfl fun q _ => ?_
    unfold negB negW
    rw [hs, h2, h3]

/-- The 256 tiles' contributions add up to the two sums over the whole matrix. -/
theorem sum_parts (E : SE.Idx → EReal) (R : SR.Idx → EReal) (L : SL.Idx → BitVec 32) (Q : SQ.Idx → BitVec 32) :
    ∑ t : Fin 256, ((∑ p : Fin 512, ∑ q : Fin 1024, posW E R L Q (rowOf t p) (colOf t q))
        + (∑ p : Fin 512, ∑ q : Fin 1024, negW E R L Q (rowOf t p) (colOf t q))) = total E R L Q := by
  rw [Finset.sum_add_distrib, sum_tiles (fun r c => posW E R L Q r c), sum_tiles (fun r c => negW E R L Q r c)]
  rfl

end Cert.Xbm

end
-- ==== Proof.Acc.lean ====
/-
  The accumulator cell point by point.

  The output window's one cell is never written back between points, so what the body leaves in it after point n is
  what it held after point n−1 plus the point's contribution; the first point sets it to zero before adding. Read off
  the pieces each case of the body's run leaves (the covering store's payload, whose loads read whole buffers), the
  cell after point n is therefore the sum of the contributions of the points 0 … n — by induction on the point — and
  after the last of the 256 points it is, by the tile law, the two sums over the whole 4096×32768 matrix.
-/
import proofs.«151275_j38062000177556_1_alg».proof.Proof.Gen.KernelIdeal.Frame
import proofs.«151275_j38062000177556_1_alg».proof.Proof.Body
import proofs.«151275_j38062000177556_1_alg».proof.Proof.Blocks
import proofs.«151275_j38062000177556_1_alg».proof.Proof.Tiles
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem
open Idealize.ShloMosaic.Pipeline (Dat)
open Idealize.ShloMosaic.ValueIdx Cert.Xbm

/-! ## What each case of the body leaves in the cell (any float instance) -/

section Pieces
variable {F : FTy → Type} [FloatOps F]

theorem hz : (![0, 0] : Fin 2 → Nat) = fun _ => 0 := funext fun a => by fin_cases a <;> rfl

/-- A later point: one covering store, of the payload over the loaded blocks and the cell's previous content. -/
theorem out_later (c : Dev nD) (i : grid0.Coords) (a2 : Memref sig .tc .vmem S512x128 .f32) (h2 : a2.IsWhole)
    (a3 : Memref sig .tc .vmem S1024x128 .f32) (h3 : a3.IsWhole) (a4 : Memref sig .tc .vmem S512x1 .i32) (h4 : a4.IsWhole)
    (a5 : Memref sig .tc .vmem S1x1024 .i32) (h5 : a5.IsWhole) (a6 : Memref sig .tc .vmem S1x1 .f32) (h6 : a6.IsWhole)
    (hc : ¬cond0_0 i) (x0 : Vec F S512x128 .f32) (x1 : Vec F S1024x128 .f32) (x2 : Vec F S512x1 .i32) (x3 : Vec F S1x1024 .i32)
    (xo : Vec F S1x1 .f32) :
    out0_B_4 c i a2 h2 a3 h3 a4 h4 a5 h5 a6 h6 hc x0 x1 x2 x3 xo
      = k0_pay1 (k0_pay5 x0 x1 x2 x3) (k0_pay6 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S512x128) hz, View.ld_unit_zero (S := S1024x128) hz, View.ld_unit_zero (S := S512x1) hz,
    View.ld_unit_zero (S := S1x1024) hz, View.ld_unit_zero (S := S1x1) hz]

/-- The first point: the zero store, then the same covering store, whose load of the cell reads the zero back. -/
theorem out_first (c : Dev nD) (i : grid0.Coords) (a2 : Memref sig .tc .vmem S512x128 .f32) (h2 : a2.IsWhole)
    (a3 : Memref sig .tc .vmem S1024x128 .f32) (h3 : a3.IsWhole) (a4 : Memref sig .tc .vmem S512x1 .i32) (h4 : a4.IsWhole)
    (a5 : Memref sig .tc .vmem S1x1024 .i32) (h5 : a5.IsWhole) (a6 : Memref sig .tc .vmem S1x1 .f32) (h6 : a6.IsWhole)
    (hc : cond0_0 i) (x0 : Vec F S512x128 .f32) (x1 : Vec F S1024x128 .f32) (x2 : Vec F S512x1 .i32) (x3 : Vec F S1x1024 .i32) :
    out0_A_4 c i a2 h2 a3 h3 a4 h4 a5 h5 a6 h6 hc x0 x1 x2 x3
      = k0_pay1 (k0_pay5 x0 x1 x2 x3) (k0_pay6 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S512x128) hz, View.ld_unit_zero (S := S1024x128) hz, View.ld_unit_zero (S := S512x1) hz,
    View.ld_unit_zero (S := S1x1024) hz, View.ld_unit_zero (S := S1x1) hz]

end Pieces

/-! ## The running sum, on the extended reals -/

variable (m : (ℓ : Loc nD τ sig) → Buf (Elt Ideal) ℓ)

/-- Point t's contribution: `partB` of the four blocks the windows hold at t. -/
def partAt (c : Dev nD) (t : Fin cfg0.N) : EReal :=
  partB (iblk m c 0 t) (iblk m c 1 t) (iblk m c 2 t) (iblk m c 3 t)

/-- The same with the point a plain number (zero past the grid). -/
def partN (c : Dev nD) (s : ℕ) : EReal := if h : s < cfg0.N then partAt m c ⟨s, h⟩ else 0

theorem partN_of_lt (c : Dev nD) {s : ℕ} (h : s < cfg0.N) : partN m c s = partAt m c ⟨s, h⟩ := dif_pos h

/-- After point n the cell holds the sum of the contributions of the points 0 … n. -/
theorem outsAt_eq (c : Dev nD) : ∀ (n : ℕ) (h : n < cfg0.N) (j : S1x1.Idx),
    outsAt0 m c n h j = ∑ s ∈ Finset.range (n + 1), partN m c s
  | 0, h, j => by
    refine (congrFun ((outsAt0_A m c ⟨0, h⟩ rfl).trans
      (out_first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩)
        ((hcond0_0 ⟨0, h⟩).mpr rfl) (iblk m c 0 ⟨0, h⟩) (iblk m c 1 ⟨0, h⟩) (iblk m c 2 ⟨0, h⟩) (iblk m c 3 ⟨0, h⟩))) j).trans ?_
    refine (Body.step_first (iblk m c 0 ⟨0, h⟩) (iblk m c 1 ⟨0, h⟩) (iblk m c 2 ⟨0, h⟩) (iblk m c 3 ⟨0, h⟩) j).trans ?_
    rw [Finset.sum_range_one, partN_of_lt m c h]
    rfl
  | n + 1, h, j => by
    have hN : cfg0.N = 256 := N_0
    have hB : ¬(⟨n + 1, h⟩ : Fin cfg0.N).val % 256 = 0 := by dsimp only; omega
    refine (congrFun ((outsAt0_B m c ⟨n + 1, h⟩ hB).trans
      (out_later (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun h' => hB ((hcond0_0 ⟨n + 1, h⟩).mp h')) (iblk m c 0 ⟨n + 1, h⟩) (iblk m c 1 ⟨n + 1, h⟩) (iblk m c 2 ⟨n + 1, h⟩)
        (iblk m c 3 ⟨n + 1, h⟩) (outsAt0 m c n (Nat.lt_of_succ_lt h)))) j).trans ?_
    refine (Body.step_later (iblk m c 0 ⟨n + 1, h⟩) (iblk m c 1 ⟨n + 1, h⟩) (iblk m c 2 ⟨n + 1, h⟩) (iblk m c 3 ⟨n + 1, h⟩)
      (outsAt0 m c n (Nat.lt_of_succ_lt h)) j).trans ?_
    rw [outsAt_eq c n (Nat.lt_of_succ_lt h) j, Finset.sum_range_succ (fun s => partN m c s) (n + 1), partN_of_lt m c h]
    rfl

/-- Point t's contribution is the two masked sums over tile t of the whole matrix. -/
theorem partAt_eq (c : Dev nD) (t : Fin cfg0.N) :
    partAt m c t
      = (∑ p : Fin 512, ∑ q : Fin 1024, posW (m ((c : Thread nD τ).loc main_arg0)) (m ((c : Thread nD τ).loc main_arg2))
            (m ((c : Thread nD τ).loc main_arg1)) (m ((c : Thread nD τ).loc main_arg3)) (rowOf (Blocks.tile t) p) (colOf (Blocks.tile t) q))
        + (∑ p : Fin 512, ∑ q : Fin 1024, negW (m ((c : Thread nD τ).loc main_arg0)) (m ((c : Thread nD τ).loc main_arg2))
            (m ((c : Thread nD τ).loc main_arg1)) (m ((c : Thread nD τ).loc main_arg3)) (rowOf (Blocks.tile t) p) (colOf (Blocks.tile t) q)) :=
  partB_eq_tile _ _ _ _ (Blocks.tile t) (iblk m c 0 t) (iblk m c 1 t) (iblk m c 2 t) (iblk m c 3 t)
    (Blocks.blk0 m c t) (Blocks.blk1 m c t) (Blocks.blk2 m c t) (Blocks.blk3 m c t)

/-- The contributions of all 256 points add up to the two sums over the whole matrix. -/
theorem acc_eq (c : Dev nD) :
    ∑ s ∈ Finset.range 256, partN m c s
      = total (m ((c : Thread nD τ).loc main_arg0)) (m ((c : Thread nD τ).loc main_arg2))
          (m ((c : Thread nD τ).loc main_arg1)) (m ((c : Thread nD τ).loc main_arg3)) := by
  rw [Finset.sum_range, ← sum_parts]
  refine Finset.sum_congr rfl fun t _ => ?_
  have ht : t.val < cfg0.N := lt_of_lt_of_eq t.isLt N_0.symm
  rw [partN_of_lt m c ht]
  exact partAt_eq m c ⟨t.val, ht⟩

end Cert.KernelIdeal.Acc

end
-- ==== Proof.KernelValue.lean ====
/-
  The kernel's result, read off its run.

  The output window's block never moves and is written back once, after the last point; by then its one cell holds
  the two sums over the whole matrix (Acc.lean). That single write-back covers the 1×1 result array, so the array
  ends holding that total; the host then reshapes it to a scalar and divides by 4096: the loss of Spec.lean. The
  argument arrays end unchanged, as the frame run says.
-/
import proofs.«151275_j38062000177556_1_alg».proof.Proof.Acc

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Xbm

variable (m : (ℓ : Loc nD τ sig) → Buf (Elt Ideal) ℓ) (ρ : Dev nD → PrngReg)

/-- The two sums over the whole matrix, of core c's argument arrays. -/
abbrev tot (c : Dev nD) : EReal :=
  total (m ((c : Thread nD τ).loc main_arg0)) (m ((c : Thread nD τ).loc main_arg2))
    (m ((c : Thread nD τ).loc main_arg1)) (m ((c : Thread nD τ).loc main_arg3))

/-- The 1×1 result array of the call: its one cell at the total. -/
abbrev cell (c : Dev nD) : Buf (Elt Ideal) ((c : Thread nD τ).loc main_v6) := fun _ => tot m c

/-- The output window's block index never moves, and its block is the whole 1×1 array. -/
theorem index4 : ∀ t : Fin cfg0.N, (win0_4.index t 0 * win0_4.size 0 = 0 ∧ win0_4.xsize (grid0.coords t) 0 = 1)
    ∧ (win0_4.index t 1 * win0_4.size 1 = 0 ∧ win0_4.xsize (grid0.coords t) 1 = 1) :=
  (by decide +kernel : ∀ t : Fin grid0.N, (win0_4.index t 0 * win0_4.size 0 = 0 ∧ win0_4.xsize (grid0.coords t) 0 = 1)
    ∧ (win0_4.index t 1 * win0_4.size 1 = 0 ∧ win0_4.xsize (grid0.coords t) 1 = 1))

/-- The one write-back, after the last point, writes the total. -/
theorem flushed_eq (c : Dev nD) (t : Fin cfg0.N) (hf : (cfg0.win 4).flush t = true) :
    (dats m 0 c).flushed 4 t = ((cfg0.win 4).blk t).view.read (Elt Ideal) (cell m c) := by
  have hN : cfg0.N = 256 := N_0
  have h255 : t.val = 255 := by have := (flush0_4 t).mp hf; have := t.isLt; omega
  show (cfg0.win 4).cut (grid0.coords t) ((dats m 0 c).after 4 t) = _
  rw [after0_4]
  funext y
  rw [View.read_apply]
  show outsAt0 m c t.val t.isLt y = tot m c
  refine (Acc.outsAt_eq m c t.val t.isLt y).trans ?_
  rw [h255]
  exact Acc.acc_eq m c

/-- The last point. -/
abbrev tLast : Fin cfg0.N := ⟨255, by rw [show cfg0.N = 256 from N_0]; decide⟩

/-- So the result array ends holding the total. -/
theorem final (c : Dev nD) : (dats m 0 c).arrAt 4 cfg0.N = cell m c :=
  (dats m 0 c).arrAt_eq_of_cover 4 (cell m c) (flushed_eq m c) fun i =>
    ⟨tLast, (flush0_4 tLast).mpr rfl, by
      show i ∈ ((View.whole main_v6).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [(index4 tLast).1.1, (index4 tLast).1.2]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [(index4 tLast).2.1, (index4 tLast).2.2]; omega⟩

/-- The loss of core c's argument arrays, as the contents of the scalar result. -/
abbrev result (c : Dev nD) : Buf (Elt Ideal) ((c : Thread nD τ).loc main_v8) := fun _ =>
  loss (m ((c : Thread nD τ).loc main_arg0)) (m ((c : Thread nD τ).loc main_arg2))
    (m ((c : Thread nD τ).loc main_arg1)) (m ((c : Thread nD τ).loc main_arg3))

/-- The host's lines after the call: the 1×1 array reshaped to a scalar and divided by 4096. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6)
      = cell m c := (Pipeline.withArrays_arr spec0 launch0.win.arr_inj c _ _ 4).trans (final m c)
  rw [e]
  rfl

/-- The run, read: the scalar result at the loss, the four argument arrays unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.lean ====
/-
  The cross-batch memory loss: the tiled kernel against the whole-matrix reference, on the extended reals.

  Both programs compute, from embeddings E [4096,128], reference embeddings R [32768,128] and the first label column
  of each side,  ( Σ_{r,c} pos(r,c) + Σ_{r,c} neg(r,c) ) / 4096,  where sim(r,c) = Σ_k E(r,k)·R(c,k), pos is 1 − sim
  on equal labels below a threshold and neg is sim on unequal labels above one half (Proof/Spec.lean).

  The reference forms the whole 4096×32768 similarity matrix and sums each masked matrix at once
  (Proof/RefIsSpec.lean, over its generated run read one operation at a time). The kernel walks an 8×32 grid of
  512×1024 tiles, adding each tile's positive-plus-negative sum into one cell that it zeroes at the first point and
  writes back after the last (Proof/Body.lean: one point's arithmetic; Proof/Blocks.lean: which rows each window
  holds; Proof/Acc.lean: the cell point by point, by induction; Proof/KernelValue.lean: the array after the run and
  the host's final division). The two agree because the tiles partition the matrix and extended-real addition is
  commutative and associative: Σ_tiles (pos-sum + neg-sum) = Σ pos + Σ neg (Proof/Spec.lean `sum_tiles`,
  Proof/Tiles.lean). No step needs an input to be finite, so the precondition is never opened. The thresholds, the
  constant 1 and the divisor are the same words in both programs and are never evaluated; the kernel's change of
  float format before its matrix product is the identity on the extended reals.

  The three frames are the generated frame runs; the idealization rewrote nothing, so `preserves` is `True`.
-/
import proofs.«151275_j38062000177556_1_alg».proof.Defs
import proofs.«151275_j38062000177556_1_alg».proof.Proof.Gen.Kernel
import proofs.«151275_j38062000177556_1_alg».proof.Proof.Gen.Kernel.Skeleton
import proofs.«151275_j38062000177556_1_alg».proof.Proof.Gen.Kernel.Launch
import proofs.«151275_j38062000177556_1_alg».proof.Proof.Gen.Kernel.Points
import proofs.«151275_j38062000177556_1_alg».proof.Proof.Gen.Kernel.Frame
import proofs.«151275_j38062000177556_1_alg».proof.Proof.Gen.KernelIdeal
import proofs.«151275_j38062000177556_1_alg».proof.Proof.Gen.KernelIdeal.Skeleton
import proofs.«151275_j38062000177556_1_alg».proof.Proof.Gen.KernelIdeal.Launch
import proofs.«151275_j38062000177556_1_alg».proof.Proof.Gen.KernelIdeal.Points
import proofs.«151275_j38062000177556_1_alg».proof.Proof.Gen.KernelIdeal.Frame
import proofs.«151275_j38062000177556_1_alg».proof.Proof.Gen.ReferenceIdeal
import proofs.«151275_j38062000177556_1_alg».proof.Proof.Gen.ReferenceIdeal.Run
import proofs.«151275_j38062000177556_1_alg».proof.Proof.Gen.ReferenceIdeal.Read
import proofs.«151275_j38062000177556_1_alg».proof.Proof.Gen.Pre_finite_inputs
import proofs.«151275_j38062000177556_1_alg».proof.Proof.RefIsSpec
import proofs.«151275_j38062000177556_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the loss of the (agreeing) argument arrays in their scalar result: the kernel's by
    `KernelValue.run`, the reference's by its generated run, whose term is the loss by `RefValue.ref_eq`. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
